-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x64 .f32) (main_arg1 : IVec S2x800000 32) (main_arg2 : FVec F S128x128 .f32) (main_arg3 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S128x64 : Shape := ⟨2, ![128, 64]⟩
abbrev S1x128 : Shape := ⟨2, ![1, 128]⟩
abbrev S16000x128 : Shape := ⟨2, ![16000, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 54
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000x64, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .bf16⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .bf16⟩
  | .hbm, ⟨27, _⟩ => ⟨S800000x128, .bf16⟩
  | .hbm, ⟨28, _⟩ => ⟨S128x64, .f32⟩
  | .hbm, ⟨29, _⟩ => ⟨S128x64, .f32⟩
  | .hbm, ⟨30, _⟩ => ⟨S128x64, .f32⟩
  | .hbm, ⟨31, _⟩ => ⟨S128x128, .f32⟩
  | .hbm, ⟨32, _⟩ => ⟨S128x128, .f32⟩
  | .hbm, ⟨33, _⟩ => ⟨S128x128, .bf16⟩
  | .hbm, ⟨34, _⟩ => ⟨S1x128, .f32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S_, .f32⟩
  | .hbm, ⟨42, _⟩ => ⟨S800000, .f32⟩
  | .hbm, ⟨43, _⟩ => ⟨S_, .f32⟩
  | .hbm, ⟨44, _⟩ => ⟨S50000, .f32⟩
  | .hbm, ⟨45, _⟩ => ⟨S800000x1, .i32⟩
  | .hbm, ⟨46, _⟩ => ⟨S50000, .f32⟩
  | .hbm, ⟨47, _⟩ => ⟨S_, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .local _ .vmem, ⟨0, _⟩ => ⟨S16000x128, .bf16⟩
  | .local _ .vmem, ⟨1, _⟩ => ⟨S16000x128, .bf16⟩
  | .local _ .vmem, ⟨2, _⟩ => ⟨S128x128, .bf16⟩
  | .local _ .vmem, ⟨3, _⟩ => ⟨S1x128, .f32⟩
  | .local _ .vmem, ⟨4, _⟩ => ⟨S16000x128, .bf16⟩
  | .local _ .vmem, ⟨5, _⟩ => ⟨S16000x128, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S128x128_S128x64_0_0 : S128x128.Slices ![0, 0] S128x64
  slices_S128x128_S128x64_0_64 : S128x128.Slices ![0, 64] S128x64
  concatenates_S128x64_S128x64_S128x128_d1 : Shape.Concatenates [S128x64, S128x64] S128x128 1
  transposes_S128x128_S128x128_1_0 : S128x128.Transposes [1, 0] S128x128
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  packedbf16_S16000x128_S16000x128_0_0 : (Rect.unit (s := S16000x128) ![0, 0] S16000x128.size inb_S16000x128_S16000x128_0_0).PackedRows (EltTy.packing .bf16)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S16000x128_S128x128_S16000x128_1_0_0_1_n_n_wf : DotDims.WF S16000x128 S128x128 S16000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .bf16 = 32 ∨ (Rect.block (s := S800000x128) S16000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x128.size a ≤ S800000x128.size a
  hwx0_3 : ∀ i : grid0.Coords, EltTy.bits .bf16 = 32 ∨ (Rect.block (s := S800000x128) S16000x128.size (cc0_transform_3 i) (hinb0_3 i)).WholeWords (EltTy.packing .bf16)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v19) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S16000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S50000x128 : Shape := ⟨2, ![50000, 128]⟩
abbrev S50000 : Shape := ⟨1, ![50000]⟩
abbrev S50000x1 : Shape := ⟨2, ![50000, 1]⟩

abbrev nBuf : Space → Nat
  | .hbm => 53
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x64, .f32⟩
  | .hbm, ⟨27, _⟩ => ⟨S800000x128, .f32⟩
  | .hbm, ⟨28, _⟩ => ⟨S128x128, .f32⟩
  | .hbm, ⟨29, _⟩ => ⟨S800000x128, .f32⟩
  | .hbm, ⟨30, _⟩ => ⟨S1x128, .f32⟩
  | .hbm, ⟨31, _⟩ => ⟨S800000x128, .f32⟩
  | .hbm, ⟨32, _⟩ => ⟨S800000x128, .f32⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S800000, .f32⟩
  | .hbm, ⟨42, _⟩ => ⟨S_, .f32⟩
  | .hbm, ⟨43, _⟩ => ⟨S50000, .f32⟩
  | .hbm, ⟨44, _⟩ => ⟨S800000x1, .i32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call0_cst : Ref sig .tc := ⟨.hbm, 33, rfl⟩
abbrev main_call0_v0 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x64_S800000x1_S800000x64_1_0_n_n_0_1_164_wf : GatherDims.WF S50000x64 S800000x1 S800000x64 [1] [0] [] [0] [] 1 ![1, 64]
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Finite.lean ====
/-
  The precondition, read: every entry of the node table and of the weight matrix is a real number.

  The precondition is the conjunction of three tests, one per float argument, each "every entry's absolute value is
  below plus infinity" folded over the whole array. An extended real whose absolute value is below plus infinity is
  neither infinity, so it is a real number.
-/
import proofs.«128475_j996432413183_2_alg».proof.Pre_finite_inputs
import proofs.«128475_j996432413183_2_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Finite

open Idealize.ShloMosaic Cert.Pre_finite_inputs

/-- The word of plus infinity. -/
theorem inf_word : Ideal.ofBits .f32 0x7F800000#32 = (⊤ : EReal) := by simp [Ideal.ofBits, Ideal.ieee]

/-- An extended real that passes the test is a real number. -/
theorem real_of_test (a : EReal)
    (h : FloatOps.cmpf (F := Ideal) (φ := .f32) .olt (FloatOps.hostAbsf (F := Ideal) (φ := .f32) a) (Ideal.ofBits .f32 0x7F800000#32) = 1#1) :
    ∃ r : ℝ, a = (r : EReal) := by
  rw [Ideal.cmpf_def, Ideal.hostAbsf_def, Ideal.absf_def, inf_word] at h
  by_cases h1 : a = ⊤
  · subst h1; simp [Ideal.cmp] at h
  by_cases h2 : a = ⊥
  · subst h2; simp [Ideal.cmp] at h
  exact ⟨a.toReal, (EReal.coe_toReal h1 h2).symm⟩

instance : Subsingleton S_.Idx := ⟨fun _ _ => funext fun d => d.elim0⟩

/-- Under the precondition the node table and the weight matrix hold real numbers. -/
theorem reals_of_pre (x : FVec Ideal S50000x64 .f32) (idx : IVec S2x800000 32) (W : FVec Ideal S128x128 .f32)
    (b : FVec Ideal S128 .f32) (h : fn (F := Ideal) x idx W b = fun _ => 1#1) :
    (∀ i, ∃ r : ℝ, x i = (r : EReal)) ∧ (∀ i, ∃ r : ℝ, W i = (r : EReal)) := by
  have h0 := congrFun h ValueIdx.ix0
  dsimp only [fn] at h0
  obtain ⟨h01, -⟩ := IntOp.andi_eq_one.1 h0
  obtain ⟨hx, hW⟩ := IntOp.andi_eq_one.1 h01
  exact ⟨fun i => real_of_test _ (Host.reduce_andi_all _ _ _ _ _ hx i),
    fun i => real_of_test _ (Host.reduce_andi_all _ _ _ _ _ hW i)⟩

end Cert.Pre_finite_inputs.Finite

end
-- ==== Proof.KernelHost.lean ====
/-
  What the kernel's three input windows hold when the region is entered, as functions of the arguments.

  The host lines before the region split the edge list into its two rows of node numbers (centres and neighbours),
  bring a negative number into range by adding the node count, look both rows of numbers up in the node table, and lay
  the two looked-up rows side by side: the packed features. They cut the weight matrix into its left and right halves,
  replace the left half by the difference of the halves, lay the two side by side again and transpose: the folded
  weights. The bias vector becomes one row.
-/
import proofs.«128475_j996432413183_2_alg».proof.Proof.Gen.KernelIdeal.Frame
import Idealize.ShloMosaic.Lib.StableHlo.Run
import Idealize.ShloMosaic.PureOps.Ideal

noncomputable section

namespace Cert.KernelIdeal.HostRead

open Cert.KernelIdeal Cert.KernelIdeal.Gen Idealize.ShloMosaic Idealize.ShloMosaic.TcCoe Idealize.SL.Sem
open Idealize.ShloMosaic.StableHlo

/-! ## The host lines' values, named -/

/-- Row r of the edge list (r = 0: the centres, r = 1: the neighbours) as a vector of node numbers. -/
def nodeNums0 (idx : IVec S2x800000 32) : IVec S800000 32 :=
  shapeCast S800000 (extractStridedSlice S1x800000 ![0, 0] idx slices_S2x800000_S1x800000_0_0) shapeCasts_S1x800000_S800000
def nodeNums1 (idx : IVec S2x800000 32) : IVec S800000 32 :=
  shapeCast S800000 (extractStridedSlice S1x800000 ![1, 0] idx slices_S2x800000_S1x800000_1_0) shapeCasts_S1x800000_S800000

/-- A negative node number counts from the end: the node count is added to it. As a column. -/
def wrapped (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- The node table's rows at a vector of node numbers. -/
def lookup (x : FVec Ideal S50000x64 .f32) (r : IVec S800000 32) : FVec Ideal S800000x64 .bf16 :=
  Host.gather gather_S50000x64_S800000x1_S800000x64_1_0_n_n_0_1_164 (truncf .bf16 x bitsLt_bf16_f32) (wrapped r)

/-- The packed features: centre row beside neighbour row. -/
def packed (x : FVec Ideal S50000x64 .f32) (idx : IVec S2x800000 32) : FVec Ideal S800000x128 .bf16 :=
  concatenate S800000x128 1 [⟨S800000x64, lookup x (nodeNums0 idx)⟩, ⟨S800000x64, lookup x (nodeNums1 idx)⟩]
    concatenates_S800000x64_S800000x64_S800000x128_d1

/-- The two halves of the weight matrix. -/
def leftHalf (W : FVec Ideal S128x128 .f32) : FVec Ideal S128x64 .f32 :=
  extractStridedSlice S128x64 ![0, 0] W slices_S128x128_S128x64_0_0
def rightHalf (W : FVec Ideal S128x128 .f32) : FVec Ideal S128x64 .f32 :=
  extractStridedSlice S128x64 ![0, 64] W slices_S128x128_S128x64_0_64

/-- The folded weights, transposed: [left - right, right], input channel first. -/
def folded (W : FVec Ideal S128x128 .f32) : FVec Ideal S128x128 .bf16 :=
  truncf .bf16 (transpose S128x128 [1, 0]
    (concatenate S128x128 1 [⟨S128x64, subf (leftHalf W) (rightHalf W)⟩, ⟨S128x64, rightHalf W⟩]
      concatenates_S128x64_S128x64_S128x128_d1) transposes_S128x128_S128x128_1_0) bitsLt_bf16_f32

/-- The bias as one row. -/
def biasRow (b : FVec Ideal S128 .f32) : FVec Ideal S1x128 .f32 := shapeCast S1x128 b shapeCasts_S128_S1x128

/-! ## What the region finds -/

variable (m : (ℓ : Loc nD τ sig) → Buf (Elt Ideal) ℓ)

/-- Two side-by-side arrays are equal when their pieces are. -/
theorem concat_congr {t s : Shape} {α : Type} (a : Fin t.rank) (A A' B B' : s.Idx → α) (h : Shape.Concatenates [s, s] t a)
    (hA : A = A') (hB : B = B') : concatenate t a [⟨s, A⟩, ⟨s, B⟩] h = concatenate t a [⟨s, A'⟩, ⟨s, B'⟩] h := by
  subst hA hB; rfl

/-- The vector of centre node numbers, which the lines after the region scatter by. -/
theorem V_rows (c : Dev nD) : V m c main_v1 = nodeNums0 (m ((c : Thread nD τ).loc main_arg1)) := by
  show StableHlo.after hostOps0 (fun b => m (c, b)) (Proc.devRef .tc main_v1) = _
  after_results_simp
  rfl

/-- Window 0's array: the packed features. -/
theorem V_packed (c : Dev nD) :
    V m c main_v19 = packed (m ((c : Thread nD τ).loc main_arg0)) (m ((c : Thread nD τ).loc main_arg1)) := by
  show StableHlo.after hostOps0 (fun b => m (c, b)) (Proc.devRef .tc main_v19) = _
  after_results_simp
  unfold packed
  refine concat_congr _ _ _ _ _ _ ?_ ?_
  · after_results_simp
    rfl
  · after_results_simp
    rfl

/-- Window 1's array: the folded weights. -/
theorem V_folded (c : Dev nD) : V m c main_v25 = folded (m ((c : Thread nD τ).loc main_arg2)) := by
  show StableHlo.after hostOps0 (fun b => m (c, b)) (Proc.devRef .tc main_v25) = _
  after_results_simp
  unfold folded
  refine congrArg (fun y => truncf .bf16 (transpose S128x128 [1, 0] y transposes_S128x128_S128x128_1_0) bitsLt_bf16_f32) ?_
  refine concat_congr _ _ _ _ _ _ ?_ ?_
  · after_results_simp
    rfl
  · after_results_simp
    rfl

/-- Window 2's array: the bias row. -/
theorem V_bias (c : Dev nD) : V m c main_v26 = biasRow (m ((c : Thread nD τ).loc main_arg3)) := by
  show StableHlo.after hostOps0 (fun b => m (c, b)) (Proc.devRef .tc main_v26) = _
  after_results_simp
  rfl

end Cert.KernelIdeal.HostRead

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.KernelBlocks.lean ====
/-
  The kernel's output array after the region: every entry is one row of packed features against one column of the
  folded weights, plus the bias, cut below at zero.

  The grid has 50 points; point t works on rows 16000 t to 16000 t + 15999 of the packed features (window 0) and of
  the output (window 3), and on the whole weight matrix and bias row (windows 1 and 2). The body multiplies its
  16000 by 128 block by the 128 by 128 weights, adds the bias row to every row and takes the maximum with zero, so
  the block it writes back is the restriction to its rows of ONE function of the whole arrays. The 50 blocks tile
  the 800000 rows.
-/
import proofs.«128475_j996432413183_2_alg».proof.Proof.Gen.KernelIdeal.Frame
import proofs.«128475_j996432413183_2_alg».proof.Proof.LibPlainDot
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

/-! ## The layer, entry by entry -/

/-- Entry (p, q) of the layer over R rows: row p of the features against column q of the weights, plus the bias,
    cut below at the programs' zero. -/
def layerEntry {R : Nat} (feats : (⟨2, ![R, 128]⟩ : Shape).Idx → EReal) (wt : (⟨2, ![128, 128]⟩ : Shape).Idx → EReal)
    (b2 : (⟨2, ![1, 128]⟩ : Shape).Idx → EReal) (p : Fin R) (q : Fin 128) : EReal :=
  max ((∑ k : Fin 128, feats (ix2 p k) * wt (ix2 k q)) + b2 (ix2 (0 : Fin 1) q)) (Ideal.ofBits .f32 0x00000000#32)

/-- The layer as an array. -/
def layer {R : Nat} (feats : (⟨2, ![R, 128]⟩ : Shape).Idx → EReal) (wt : (⟨2, ![128, 128]⟩ : Shape).Idx → EReal)
    (b2 : (⟨2, ![1, 128]⟩ : Shape).Idx → EReal) : (⟨2, ![R, 128]⟩ : Shape).Idx → EReal :=
  fun i => layerEntry feats wt b2 ⟨(i 0).val, idx2_lt0 i⟩ ⟨(i 1).val, idx2_lt1 i⟩

theorem layer_ix2 {R : Nat} (feats : (⟨2, ![R, 128]⟩ : Shape).Idx → EReal) (wt : (⟨2, ![128, 128]⟩ : Shape).Idx → EReal)
    (b2 : (⟨2, ![1, 128]⟩ : Shape).Idx → EReal) (p : Fin R) (q : Fin 128) :
    layer feats wt b2 (ix2 p q) = layerEntry feats wt b2 p q := rfl

/-- An entry of the layer over a block of rows is the entry of the layer over all rows, when the block's row is the
    array's row and the weights and bias are the same. -/
theorem layerEntry_of_block {R : Nat} (feats : (⟨2, ![R, 128]⟩ : Shape).Idx → EReal)
    (wt : (⟨2, ![128, 128]⟩ : Shape).Idx → EReal) (b2 : (⟨2, ![1, 128]⟩ : Shape).Idx → EReal)
    (x0 : (⟨2, ![16000, 128]⟩ : Shape).Idx → EReal) (x1 : (⟨2, ![128, 128]⟩ : Shape).Idx → EReal)
    (x2 : (⟨2, ![1, 128]⟩ : Shape).Idx → EReal) (p : Fin 16000) (q : Fin 128) (e : Fin R) (q' : Fin 128)
    (hq : q' = q) (h0 : ∀ k : Fin 128, x0 (ix2 p k) = feats (ix2 e k)) (h1 : x1 = wt) (h2 : x2 = b2) :
    layerEntry x0 x1 x2 p q = layerEntry feats wt b2 e q' := by
  subst hq h1 h2
  unfold layerEntry
  simp only [h0]

/-! ## The body's arithmetic -/

/-- The program's matmul dimension numbers are the plain M by K times K by N ones. -/
theorem dot_eq : dot_S16000x128_S128x128_S16000x128_1_0_0_1_n_n = DotDims.plain 16000 128 128 := rfl

/-- What the body stores, as the layer over its block of rows. -/
theorem pay_eq (x0 : Vec Ideal S16000x128 .bf16) (x1 : Vec Ideal S128x128 .bf16) (x2 : Vec Ideal S1x128 .f32) :
    k0_pay1 (F := Ideal) x0 x1 x2 = layer (R := 16000) x0 x1 x2 := by
  funext j
  obtain ⟨p, q, rfl⟩ : ∃ (p : Fin 16000) (q : Fin 128), j = ix2 p q := ⟨j 0, j 1, eq_ix2 j⟩
  rw [layer_ix2]
  unfold k0_pay1
  simp only [shapeCast_self]
  show max (FloatOps.matmul (F := Ideal) dot_S16000x128_S128x128_S16000x128_1_0_0_1_n_n none x0 x1 (constant (F := Ideal) S16000x128 .f32 0x00000000#32) (ix2 p q)
      + broadcastTo S16000x128 x2 broadcasts_S1x128_S16000x128 (ix2 p q)) (Ideal.ofBits .f32 0x00000000#32) = _
  rw [broadcastTo_1b_ab_apply, dot_eq, PlainDot.matmul_zero_apply]
  rfl

/-- The layer over a block of rows, at a block index, is the layer over all rows at the array index with the same
    column whose row holds the block's row. -/
theorem layer_block {R : Nat} (feats : (⟨2, ![R, 128]⟩ : Shape).Idx → EReal)
    (wt : (⟨2, ![128, 128]⟩ : Shape).Idx → EReal) (b2 : (⟨2, ![1, 128]⟩ : Shape).Idx → EReal)
    (x0 : (⟨2, ![16000, 128]⟩ : Shape).Idx → EReal) (x1 : (⟨2, ![128, 128]⟩ : Shape).Idx → EReal)
    (x2 : (⟨2, ![1, 128]⟩ : Shape).Idx → EReal) (h1 : x1 = wt) (h2 : x2 = b2)
    (y : (⟨2, ![16000, 128]⟩ : Shape).Idx) (i : (⟨2, ![R, 128]⟩ : Shape).Idx) (hi1 : (i 1).val = (y 1).val)
    (h0 : ∀ k : Fin 128, x0 (ix2 ⟨(y 0).val, idx2_lt0 y⟩ k) = feats (ix2 ⟨(i 0).val, idx2_lt0 i⟩ k)) :
    layer x0 x1 x2 y = layer feats wt b2 i :=
  layerEntry_of_block feats wt b2 x0 x1 x2 _ _ _ _ (Fin.ext hi1) h0 h1 h2

/-! ## From the blocks to the array -/

variable (m : (ℓ : Loc nD τ sig) → Buf (Elt Ideal) ℓ)

theorem zero_offsets : (![0, 0] : Fin 2 → Nat) = fun _ => 0 := funext fun a => by fin_cases a <;> rfl

/-- The printed index maps over the grid: the feature and output windows are on block row t, the weights and the
    bias stay at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the layer over the whole arrays as the region finds them. -/
theorem flushed_eq (c : Dev nD) (t : Fin cfg0.N) :
    (dats m 0 c).flushed 3 t = ((cfg0.win 3).blk t).view.read (Elt Ideal)
      (layer (R := 800000) (V m c main_v19) (V m c main_v25) (V m c main_v26)) := by
  show (cfg0.win 3).cut (grid0.coords t) ((dats m 0 c).after 3 t) = _
  rw [after0_3]
  unfold out0_3
  rw [View.canon_unit_zero zero_offsets]
  simp only [View.ld_unit_zero (S := S16000x128) zero_offsets, View.ld_unit_zero (S := S128x128) zero_offsets,
    View.ld_unit_zero (S := S1x128) zero_offsets]
  rw [pay_eq]
  obtain ⟨e00, e01, e10, e11, e20, e21, e30, e31⟩ := index_maps t
  funext j
  show layer (R := 16000) (iblk m c 0 t) (iblk m c 1 t) (iblk m c 2 t) j
    = layer (R := 800000) (V m c main_v19) (V m c main_v25) (V m c main_v26) (((cfg0.win 3).blk t).view.emb j)
  refine layer_block _ _ _ _ _ _ ?_ ?_ j _ ?_ ?_
  · funext y
    show V m c main_v25 (((cfg0.win 1).blk t).view.emb y) = V m c main_v25 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show V m c main_v26 (((cfg0.win 2).blk t).view.emb y) = V m c main_v26 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (1 : Fin 2) * 128 + 1 * (j 1).val = (j 1).val
    omega
  · intro k
    show V m c main_v19 (((cfg0.win 0).blk t).view.emb (ix2 ⟨(j 0).val, idx2_lt0 j⟩ k)) = _
    refine congrArg _ (funext fun a => Fin.ext ?_)
    match a with
    | ⟨0, _⟩ => show win0_0.index t (0 : Fin 2) * 16000 + 1 * (j 0).val = win0_3.index t (0 : Fin 2) * 16000 + 1 * (j 0).val; omega
    | ⟨1, _⟩ => show win0_0.index t (1 : Fin 2) * 128 + 1 * k.val = k.val; omega

/-- An index of the output array is in point t's block iff each coordinate is in the block's range on its axis. -/
theorem mem_blk (t : Fin cfg0.N) (i : S800000x128.Idx) :
    i ∈ ((cfg0.win 3).blk t).view.set ↔ ∀ a : Fin 2, win0_3.index t a * S16000x128.size a ≤ (i a).val
      ∧ (i a).val < win0_3.index t a * S16000x128.size a + S16000x128.size a := by
  show i ∈ ((View.whole main_v27).slice (win0_3.rect t)).set ↔ _
  rw [View.set_slice_whole, Rect.mem_set_unit]
  exact Iff.rfl

/-- THE COVER: row r of the output is in the block of point r / 16000. -/
theorem cover (i : S800000x128.Idx) :
    ∃ t : Fin cfg0.N, (cfg0.win 3).flush t = true ∧ i ∈ ((cfg0.win 3).blk t).view.set := by
  have hi0 : (i 0).val < 800000 := (i 0).isLt
  have hi1 : (i 1).val < 128 := (i 1).isLt
  have hN : (50 : Nat) = cfg0.N := N_0.symm
  have ht : (i 0).val / 16000 < cfg0.N := lt_of_lt_of_eq (by omega : (i 0).val / 16000 < 50) hN
  refine ⟨⟨(i 0).val / 16000, ht⟩, flush0_3 _, ?_⟩
  rw [mem_blk]
  obtain ⟨-, -, -, -, -, -, e30, e31⟩ := index_maps ⟨(i 0).val / 16000, ht⟩
  have e30' : win0_3.index ⟨(i 0).val / 16000, ht⟩ (0 : Fin 2) = (i 0).val / 16000 := e30
  intro a
  match a with
  | ⟨0, _⟩ =>
    show win0_3.index ⟨(i 0).val / 16000, ht⟩ (0 : Fin 2) * 16000 ≤ (i 0).val
      ∧ (i 0).val < win0_3.index ⟨(i 0).val / 16000, ht⟩ (0 : Fin 2) * 16000 + 16000
    omega
  | ⟨1, _⟩ =>
    show win0_3.index ⟨(i 0).val / 16000, ht⟩ (1 : Fin 2) * 128 ≤ (i 1).val
      ∧ (i 1).val < win0_3.index ⟨(i 0).val / 16000, ht⟩ (1 : Fin 2) * 128 + 128
    omega

/-- THE OUTPUT ARRAY after the region: the layer over the packed features, the folded weights and the bias row. -/
theorem final (c : Dev nD) :
    (dats m 0 c).arrAt 3 cfg0.N = layer (R := 800000) (V m c main_v19) (V m c main_v25) (V m c main_v26) :=
  (dats m 0 c).arrAt_eq_of_cover 3 _ (fun t _ => flushed_eq m c t) cover

end Cert.KernelIdeal.Blocks

end
-- ==== Proof.KernelRun.lean ====
/-
  The kernel program's run, read: its result is the tail of the edge features.

  The lines after the region add every edge's feature row into the row of its centre node, count the edges of each
  centre node the same way (adding ones), raise the counts to at least one, and divide each node's sum by its count.
  Both the sums and the counts are scattered by the centre node numbers as they come in the edge list. That tail is
  named here as one function of the node numbers and of the edge features, so that it is never opened: the two programs
  end with the same tail, and agree as soon as their edge features do.
-/
import proofs.«128475_j996432413183_2_alg».proof.Proof.Gen.KernelIdeal.Frame
import proofs.«128475_j996432413183_2_alg».proof.Proof.KernelHost
import proofs.«128475_j996432413183_2_alg».proof.Proof.KernelBlocks
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.StableHlo
open Cert.KernelIdeal.HostRead Cert.KernelIdeal.Blocks

/-- The node sums divided by the node counts, from the centre node numbers and the edge features. -/
def tail (rows : IVec S800000 32) (E : FVec Ideal S800000x128 .f32) : FVec Ideal S50000x128 .f32 :=
  Host.divf
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 rows) E)
    (broadcastInDim S50000x128 ![0, 1] bcast_S50000x1_S50000x128_0_1
      (broadcastInDim S50000x1 ![0] bcast_S50000_S50000x1_0
        (maximumf
          (broadcastInDim S50000 ![] bcast_S_S50000 (id (constant (F := Ideal) S_ .f32 0x3F800000#32)))
          (Host.scatterAdd scatter_S50000_S800000x1_S800000_n_0_0_1
            (broadcastInDim S50000 ![] bcast_S_S50000 (constant (F := Ideal) S_ .f32 0x00000000#32))
            (broadcastInDim S800000x1 ![0] bcast_S800000_S800000x1_0 rows)
            (broadcastInDim S800000 ![] bcast_S_S800000 (constant (F := Ideal) S_ .f32 0x3F800000#32))))))

variable (m : (ℓ : Loc nD τ sig) → Buf (Elt Ideal) ℓ) (ρ : Dev nD → PrngReg)

/-! ## The three stretches of lines after the region, each read from ANY buffer contents -/

section Stretches

variable (B : Valuation τ sig (Elt Ideal))

/-- The last stretch divides the sums by the counts, spread over the columns. -/
theorem after_divide :
    (StableHlo.after hostOps1_2 B (Proc.devRef .tc main_v39) : (⟨S50000x128, .f32⟩ : BufTy).Contents (Elt Ideal))
      = Host.divf (F := Ideal) (φ := .f32) (B (Proc.devRef .tc main_v31))
          (broadcastInDim S50000x128 ![0, 1] bcast_S50000x1_S50000x128_0_1
            (broadcastInDim S50000x1 ![0] bcast_S50000_S50000x1_0 (B (Proc.devRef .tc main_v36)))) := by
  after_results_simp <;> rfl

/-- The middle stretch (raising the counts to at least one) leaves the sums alone … -/
theorem after_clip_sums : StableHlo.after hostOps1_1 B (Proc.devRef .tc main_v31) = B (Proc.devRef .tc main_v31) := by
  after_results_simp

/-- … and raises the counts. -/
theorem after_clip :
    (StableHlo.after hostOps1_1 B (Proc.devRef .tc main_v36) : (⟨S50000, .f32⟩ : BufTy).Contents (Elt Ideal))
      = maximumf (F := Ideal) (φ := .f32) (broadcastInDim S50000 ![] bcast_S_S50000 (id (B (Proc.devRef .tc main_cst_5))))
          (B (Proc.devRef .tc main_v35)) := by
  after_results_simp <;> rfl

/-- The first stretch adds the edge features into their centre nodes' rows … -/
theorem after_sums : StableHlo.after hostOps1 B (Proc.devRef .tc main_v31)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (B (Proc.devRef .tc main_v1)))
        (extf .f32 (B (Proc.devRef .tc main_v27)) bitsLt_bf16_f32) := by
  after_results_simp <;> rfl

/-- … counts each centre node's edges … -/
theorem after_counts : StableHlo.after hostOps1 B (Proc.devRef .tc main_v35)
    = Host.scatterAdd scatter_S50000_S800000x1_S800000_n_0_0_1
        (broadcastInDim S50000 ![] bcast_S_S50000 (constant (F := Ideal) S_ .f32 0x00000000#32))
        (broadcastInDim S800000x1 ![0] bcast_S800000_S800000x1_0 (B (Proc.devRef .tc main_v1)))
        (broadcastInDim S800000 ![] bcast_S_S800000 (constant (F := Ideal) S_ .f32 0x3F800000#32)) := by
  after_results_simp <;> rfl

/-- … and writes the constant one. -/
theorem after_one : StableHlo.after hostOps1 B (Proc.devRef .tc main_cst_5) = constant (F := Ideal) S_ .f32 0x3F800000#32 := by
  after_results_simp <;> rfl

end Stretches

/-- What the result buffer holds after the lines that follow the region: the tail of the node numbers as the region
    found them and of the output array as the region left it (widened, which changes nothing on extended reals). -/
theorem result (c : Dev nD) :
    Pipeline.afterTail₀ cfgs (dats m) 0 (V0 m) [hostOps1, hostOps1_1, hostOps1_2] c main_v39
      = tail (V m c main_v1) (extf .f32 ((dats m 0 c).arrAt 3 cfg0.N) bitsLt_bf16_f32) := by
  unfold Pipeline.afterTail₀
  simp only [List.flatten_cons, List.flatten_nil, List.append_nil]
  rw [StableHlo.after_append, StableHlo.after_append, after_divide, after_clip_sums, after_clip, after_sums, after_counts,
    after_one]
  have e1 : Pipeline.withArrays (cfgs 0).spec c (V0 m c) (fun w => (dats m 0 c).arrAt w (cfgs 0).N)
      (Proc.devRef .tc main_v27) = (dats m 0 c).arrAt 3 cfg0.N :=
    Pipeline.withArrays_arr spec0 launch0.win.arr_inj c _ _ 3
  have e2 : Pipeline.withArrays (cfgs 0).spec c (V0 m c) (fun w => (dats m 0 c).arrAt w (cfgs 0).N)
      (Proc.devRef .tc main_v1) = V m c main_v1 :=
    Pipeline.withArrays_of_ne spec0 c (V0 m c) _ main_v1 (by decide)
  rw [e1, e2]
  rfl

/-- THE KERNEL PROGRAM'S RUN: it terminates with the result at the tail of the centre node numbers and of the layer
    over the packed features, the folded weights and the bias row, and with its arguments as launched. -/
theorem run : θ_run defs (onTc (τ := τ) (main (F := Ideal))) ⟨m, fun _ => 0, ρ⟩ fun r => ∀ c : Dev nD,
      r.2.mem ((c.tc : Thread nD τ).loc main_v39)
        = tail (nodeNums0 (m ((c.tc : Thread nD τ).loc main_arg1)))
            (layer (R := 800000)
              (packed (m ((c.tc : Thread nD τ).loc main_arg0)) (m ((c.tc : Thread nD τ).loc main_arg1)))
              (folded (m ((c.tc : Thread nD τ).loc main_arg2))) (biasRow (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v39 (Pipeline.mem_restRefs_of main_v39 (by decide) (by decide))).trans
        ((result m c).trans (by rw [final, V_rows, V_packed, V_folded, V_bias]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.EdgeLaw.lean ====
/-
  The edge network's output entry, and the one algebraic law that joins its two spellings.

  An edge has a centre row c and a neighbour row n of the node table (64 numbers each). Output channel j of the
  edge's linear layer has 128 weights: wc, its first 64, and wd, its last 64. One program feeds [c, n - c] to the
  weights [wc, wd]; the other feeds [c, n] to the folded weights [wc - wd, wd]:

      sum c (wc - wd) + sum n wd  =  sum c wc + sum (n - c) wd.

  This is distributivity, which on the extended reals fails at the infinities, so it is stated for finite numbers.
  Both spellings then add the bias and take the maximum with zero.
-/
import Idealize.ShloMosaic.Lib.ValueIdx

noncomputable section

open scoped BigOperators

namespace EdgeConv

open Idealize.ShloMosaic Idealize.ShloMosaic.ValueIdx

/-- A finite sum of real numbers read in the extended reals is the sum of the readings. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of 128 = 64 + 64 terms is the sum of the first 64 plus the sum of the last 64. -/
theorem sum_halves {M : Type} [AddCommMonoid M] (g : Fin 128 → M) :
    ∑ k, g k = (∑ k : Fin 64, g (Fin.castAdd 64 k)) + ∑ k : Fin 64, g (Fin.natAdd 64 k) :=
  Fin.sum_univ_add (a := 64) (b := 64) g

/-- THE LAW, on finite numbers: folding the difference into the weights instead of into the features. -/
theorem fold_law (c n wc wd : Fin 64 → ℝ) :
    (∑ k, (c k : EReal) * ((wc k : EReal) - (wd k : EReal))) + ∑ k, (n k : EReal) * (wd k : EReal)
      = (∑ k, (c k : EReal) * (wc k : EReal)) + ∑ k, ((n k : EReal) - (c k : EReal)) * (wd k : EReal) := by
  simp only [← EReal.coe_sub, ← EReal.coe_mul, coe_sum, ← EReal.coe_add]
  refine congrArg _ ?_
  simp only [mul_sub, sub_mul, Finset.sum_sub_distrib]
  ring

/-! ## One entry of the edge features -/

section Entry

variable {E : Nat}
variable (c n : (⟨2, ![E, 64]⟩ : Shape).Idx → EReal) (W : (⟨2, ![128, 128]⟩ : Shape).Idx → EReal)
  (b : (⟨1, ![128]⟩ : Shape).Idx → EReal) (z : EReal)

/-- Edge e, channel j, the difference taken on the FEATURES: the row [c, n - c] against row j of W, plus the bias,
    cut below at z (the programs' zero). -/
def entryFeat (e : Fin E) (j : Fin 128) : EReal :=
  max (((∑ k : Fin 64, c (ix2 e k) * W (ix2 j (Fin.castAdd 64 k)))
      + ∑ k : Fin 64, (n (ix2 e k) - c (ix2 e k)) * W (ix2 j (Fin.natAdd 64 k))) + b (ix1 j)) z

/-- The same with the difference taken on the WEIGHTS: the row [c, n] against [wc - wd, wd]. -/
def entryWeight (e : Fin E) (j : Fin 128) : EReal :=
  max (((∑ k : Fin 64, c (ix2 e k) * (W (ix2 j (Fin.castAdd 64 k)) - W (ix2 j (Fin.natAdd 64 k))))
      + ∑ k : Fin 64, n (ix2 e k) * W (ix2 j (Fin.natAdd 64 k))) + b (ix1 j)) z

/-- On finite features and weights the two are one number. -/
theorem entryWeight_eq_entryFeat (hc : ∀ i, ∃ r : ℝ, c i = (r : EReal)) (hn : ∀ i, ∃ r : ℝ, n i = (r : EReal))
    (hW : ∀ i, ∃ r : ℝ, W i = (r : EReal)) (e : Fin E) (j : Fin 128) :
    entryWeight c n W b z e j = entryFeat c n W b z e j := by
  choose cr hcr using hc
  choose nr hnr using hn
  choose wr hwr using hW
  unfold entryWeight entryFeat
  simp only [hcr, hnr, hwr]
  rw [fold_law (fun k => cr (ix2 e k)) (fun k => nr (ix2 e k)) (fun k => wr (ix2 j (Fin.castAdd 64 k)))
    (fun k => wr (ix2 j (Fin.natAdd 64 k)))]

/-- The whole array of edge features, the difference on the features: what both programs scatter. -/
def edgeFeats : (⟨2, ![E, 128]⟩ : Shape).Idx → EReal :=
  fun i => entryFeat c n W b z ⟨(i 0).val, idx2_lt0 i⟩ ⟨(i 1).val, idx2_lt1 i⟩

theorem edgeFeats_ix2 (e : Fin E) (j : Fin 128) : edgeFeats c n W b z (ix2 e j) = entryFeat c n W b z e j := rfl

end Entry

end EdgeConv

end
-- ==== Proof.Layout.lean ====
/-
  Two arrays of 64 columns laid side by side, read at an index: a column below 64 reads the left array, a column
  from 64 on reads the right array 64 columns earlier.
-/
import Idealize.ShloMosaic.Lib.Pipeline.Value
import Idealize.ShloMosaic.Lib.ValueIdx

noncomputable section

namespace EdgeConv.Layout

open Idealize.ShloMosaic Idealize.ShloMosaic.ValueIdx

variable {α : Type} {R : Nat}

/-- At row e and a column k below 64, the side-by-side array is the left array at (e, k). -/
theorem beside_left (a b : (⟨2, ![R, 64]⟩ : Shape).Idx → α)
    (h : Shape.Concatenates [(⟨2, ![R, 64]⟩ : Shape), ⟨2, ![R, 64]⟩] ⟨2, ![R, 128]⟩ (1 : Fin 2))
    (j : (⟨2, ![R, 128]⟩ : Shape).Idx) (e : Fin R) (k : Fin 64) (hj0 : (j 0).val = e.val) (hj1 : (j 1).val = k.val) :
    concatenate ⟨2, ![R, 128]⟩ (1 : Fin 2) [⟨⟨2, ![R, 64]⟩, a⟩, ⟨⟨2, ![R, 64]⟩, b⟩] h j = a (ix2 e k) :=
  concatenate_pair_apply_left (1 : Fin 2) a b h j rfl (ix2 e k) (fun d => match d with
    | ⟨0, _⟩ => hj0.symm
    | ⟨1, _⟩ => hj1.symm)

/-- At row e and column 64 + k, it is the right array at (e, k). -/
theorem beside_right (a b : (⟨2, ![R, 64]⟩ : Shape).Idx → α)
    (h : Shape.Concatenates [(⟨2, ![R, 64]⟩ : Shape), ⟨2, ![R, 64]⟩] ⟨2, ![R, 128]⟩ (1 : Fin 2))
    (j : (⟨2, ![R, 128]⟩ : Shape).Idx) (e : Fin R) (k : Fin 64) (hj0 : (j 0).val = e.val) (hj1 : (j 1).val = 64 + k.val) :
    concatenate ⟨2, ![R, 128]⟩ (1 : Fin 2) [⟨⟨2, ![R, 64]⟩, a⟩, ⟨⟨2, ![R, 64]⟩, b⟩] h j = b (ix2 e k) :=
  concatenate_pair_apply_right (1 : Fin 2) a b h j rfl rfl (ix2 e k) (fun d hd => match d, hd with
    | ⟨0, _⟩, _ => hj0.symm
    | ⟨1, _⟩, hd => absurd (Fin.ext rfl) hd) (by show k.val + 64 = (j 1).val; omega)

end EdgeConv.Layout

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.KernelEdge.lean ====
/-
  The kernel's layer, entry by entry, is the specification's edge features.

  The packed features at column k below 64 are the centre row's entry k, from 64 on the neighbour row's entry k - 64;
  the folded weights at input channel k below 64 are the difference of the weight matrix's two halves, from 64 on the
  right half; the bias row is the bias. So an entry of the layer is the entry "difference on the weights", and for a
  finite node table and finite weights that is the entry "difference on the features" (the folding law). The looked-up
  rows are rows of the node table, so they are finite when the table is.
-/
import proofs.«128475_j996432413183_2_alg».proof.Proof.KernelHost
import proofs.«128475_j996432413183_2_alg».proof.Proof.KernelBlocks
import proofs.«128475_j996432413183_2_alg».proof.Proof.EdgeLaw
import proofs.«128475_j996432413183_2_alg».proof.Proof.Layout
import proofs.«128475_j996432413183_2_alg».proof.Proof.LibRowGather
import Idealize.ShloMosaic.Lib.ValueLayout

noncomputable section

open scoped BigOperators

namespace Cert.KernelIdeal.Edge

open Cert.KernelIdeal Cert.KernelIdeal.Gen Idealize.ShloMosaic Idealize.ShloMosaic.ValueIdx
open Cert.KernelIdeal.HostRead Cert.KernelIdeal.Blocks

/-- A looked-up entry is the node table's entry at the selected row and the same column. -/
theorem lookup_apply (x : FVec Ideal S50000x64 .f32) (r : IVec S800000 32) (e : Fin 800000) (k : Fin 64) :
    lookup x r (ix2 e k)
      = x (ix2 (RowGather.rowOf (N := 50000) (by decide) (wrapped r (ix2 e (0 : Fin 1)))) k) := by
  unfold lookup
  exact RowGather.rowGather_apply (N := 50000) (E := 800000) (D := 64) (by decide)
    gather_S50000x64_S800000x1_S800000x64_1_0_n_n_0_1_164_wf (truncf .bf16 x bitsLt_bf16_f32) (wrapped r) e k

/-- So the looked-up rows of a finite table are finite. -/
theorem lookup_real (x : FVec Ideal S50000x64 .f32) (r : IVec S800000 32) (hx : ∀ i, ∃ a : ℝ, x i = (a : EReal))
    (i : S800000x64.Idx) : ∃ a : ℝ, (lookup x r i : EReal) = (a : EReal) := by
  obtain ⟨e, k, rfl⟩ : ∃ (e : Fin 800000) (k : Fin 64), i = ix2 e k := ⟨i 0, i 1, eq_ix2 i⟩
  rw [lookup_apply]
  exact hx _

/-- The packed features, left of column 64: the centre row. -/
theorem packed_low (x : FVec Ideal S50000x64 .f32) (idx : IVec S2x800000 32) (e : Fin 800000) (k : Fin 64) :
    packed x idx (ix2 e (Fin.castAdd 64 k)) = lookup x (nodeNums0 idx) (ix2 e k) := by
  unfold packed
  exact EdgeConv.Layout.beside_left _ _ _ _ e k rfl rfl

/-- The packed features, from column 64 on: the neighbour row. -/
theorem packed_high (x : FVec Ideal S50000x64 .f32) (idx : IVec S2x800000 32) (e : Fin 800000) (k : Fin 64) :
    packed x idx (ix2 e (Fin.natAdd 64 k)) = lookup x (nodeNums1 idx) (ix2 e k) := by
  unfold packed
  exact EdgeConv.Layout.beside_right _ _ _ _ e k rfl rfl

/-- The transposed side-by-side weights at (input channel k', output channel j) are the side-by-side weights at (j, k'). -/
theorem folded_apply (W : FVec Ideal S128x128 .f32) (k' j : Fin 128) :
    folded W (ix2 k' j)
      = concatenate S128x128 1 [⟨S128x64, subf (leftHalf W) (rightHalf W)⟩, ⟨S128x64, rightHalf W⟩]
          concatenates_S128x64_S128x64_S128x128_d1 (ix2 j k') := by
  unfold folded
  show transpose S128x128 [1, 0]
      (concatenate S128x128 1 [⟨S128x64, subf (leftHalf W) (rightHalf W)⟩, ⟨S128x64, rightHalf W⟩]
        concatenates_S128x64_S128x64_S128x128_d1) transposes_S128x128_S128x128_1_0 (ix2 k' j) = _
  exact transpose_apply [1, 0] _ _ (ix2 k' j) (ix2 j k') (fun b => match b with
    | ⟨0, _⟩ => rfl
    | ⟨1, _⟩ => rfl)

/-- The folded weights, input channels below 64: the left half less the right half. -/
theorem folded_low (W : FVec Ideal S128x128 .f32) (k : Fin 64) (j : Fin 128) :
    folded W (ix2 (Fin.castAdd 64 k) j) = W (ix2 j (Fin.castAdd 64 k)) - W (ix2 j (Fin.natAdd 64 k)) := by
  rw [folded_apply]
  refine (EdgeConv.Layout.beside_left _ _ _ _ j k rfl rfl).trans ?_
  show leftHalf W (ix2 j k) - rightHalf W (ix2 j k) = _
  unfold leftHalf rightHalf
  rw [slice2_axis1_apply 0 W _ j k (Fin.castAdd 64 k) (Nat.zero_add _).symm,
    slice2_axis1_apply 64 W _ j k (Fin.natAdd 64 k) rfl]

/-- The folded weights, input channels from 64 on: the right half. -/
theorem folded_high (W : FVec Ideal S128x128 .f32) (k : Fin 64) (j : Fin 128) :
    folded W (ix2 (Fin.natAdd 64 k) j) = W (ix2 j (Fin.natAdd 64 k)) := by
  rw [folded_apply]
  refine (EdgeConv.Layout.beside_right _ _ _ _ j k rfl rfl).trans ?_
  unfold rightHalf
  rw [slice2_axis1_apply 64 W _ j k (Fin.natAdd 64 k) rfl]

/-- The bias row's entry j is the bias's entry j. -/
theorem bias_apply (b : FVec Ideal S128 .f32) (j : Fin 128) : biasRow b (ix2 (0 : Fin 1) j) = b (ix1 j) := by
  unfold biasRow
  exact shapeCast_a_1a_apply b _ (0 : Fin 1) j

/-- THE KERNEL'S EDGE FEATURES: for a finite node table and finite weights, the layer over the packed features and
    the folded weights is the specification's array (difference on the features) of the two looked-up arrays. -/
theorem layer_eq (x : FVec Ideal S50000x64 .f32) (idx : IVec S2x800000 32) (W : FVec Ideal S128x128 .f32)
    (b : FVec Ideal S128 .f32) (hx : ∀ i, ∃ a : ℝ, x i = (a : EReal)) (hW : ∀ i, ∃ a : ℝ, W i = (a : EReal)) :
    layer (R := 800000) (packed x idx) (folded W) (biasRow b)
      = EdgeConv.edgeFeats (E := 800000) (lookup x (nodeNums0 idx)) (lookup x (nodeNums1 idx)) W b
          (Ideal.ofBits .f32 0x00000000#32) := by
  funext i
  obtain ⟨e, j, rfl⟩ : ∃ (e : Fin 800000) (j : Fin 128), i = ix2 e j := ⟨i 0, i 1, eq_ix2 i⟩
  rw [layer_ix2, EdgeConv.edgeFeats_ix2,
    ← EdgeConv.entryWeight_eq_entryFeat _ _ _ _ _ (lookup_real x _ hx) (lookup_real x _ hx) hW]
  unfold layerEntry EdgeConv.entryWeight
  rw [EdgeConv.sum_halves]
  simp only [packed_low, packed_high, folded_low, folded_high, bias_apply]

end Cert.KernelIdeal.Edge

end
-- ==== Proof.RefValue.lean ====
/-
  The reference's edge features, entry by entry.

  The reference looks the centre and neighbour rows up in the node table, lays the centre row beside the difference
  neighbour - centre, multiplies by the transposed weight matrix, adds the bias and takes the maximum with zero. Read
  at edge e and channel j, with the sum over the 128 input channels cut into its two halves, that is the entry
  "difference on the features" of the specification.
-/
import proofs.«128475_j996432413183_2_alg».proof.Proof.Gen.ReferenceIdeal.Read
import proofs.«128475_j996432413183_2_alg».proof.Proof.EdgeLaw
import proofs.«128475_j996432413183_2_alg».proof.Proof.Layout

noncomputable section

open scoped BigOperators

namespace Cert.ReferenceIdeal.RefValue

open Cert.ReferenceIdeal Cert.ReferenceIdeal.Read Idealize.ShloMosaic Idealize.ShloMosaic.ValueIdx

/-- The reference's activations are the specification's edge features of the two looked-up arrays. -/
theorem edge_eq (x0 : (⟨S50000x64, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v25 (F := Ideal) x0 x1 x2 x3
      = EdgeConv.edgeFeats (E := 800000) (val_main_v10 (F := Ideal) x0 x1) (val_main_v17 (F := Ideal) x0 x1) x2 x3
          (Ideal.ofBits .f32 0x00000000#32) := by
  funext i
  obtain ⟨e, j, rfl⟩ : ∃ (e : Fin 800000) (j : Fin 128), i = ix2 e j := ⟨i 0, i 1, eq_ix2 i⟩
  rw [EdgeConv.edgeFeats_ix2, val_main_v25_apply, val_main_v24_apply, val_main_v21_apply, val_main_call0_v0_apply,
    val_main_call0_cst_apply, val_main_v23_apply, val_main_v22_apply]
  unfold EdgeConv.entryFeat
  rw [EdgeConv.sum_halves]
  have hlow : ∀ k : Fin 64, val_main_v19 (F := Ideal) x0 x1 (lidx_main_v21 (ix2 e j) (Fin.castAdd 64 k))
      = val_main_v10 (F := Ideal) x0 x1 (ix2 e k) := fun k => by
    unfold val_main_v19
    exact EdgeConv.Layout.beside_left _ _ _ _ e k rfl rfl
  have hhigh : ∀ k : Fin 64, val_main_v19 (F := Ideal) x0 x1 (lidx_main_v21 (ix2 e j) (Fin.natAdd 64 k))
      = val_main_v17 (F := Ideal) x0 x1 (ix2 e k) - val_main_v10 (F := Ideal) x0 x1 (ix2 e k) := fun k => by
    unfold val_main_v19
    rw [EdgeConv.Layout.beside_right _ _ _ _ e k rfl rfl]
    rfl
  have hw : ∀ k : Fin 128, idx_main_v20 (ridx_main_v21 (ix2 e j) k) = ix2 j k := fun k =>
    funext fun a => match a with
      | ⟨0, _⟩ => rfl
      | ⟨1, _⟩ => rfl
  have hb : idx_main_v22 (idx_main_v23 (ix2 e j)) = ix1 j := funext fun a => match a with
    | ⟨0, _⟩ => rfl
  simp only [val_main_v20_apply, hlow, hhigh, hw, hb]
  rfl

end Cert.ReferenceIdeal.RefValue

end
-- ==== Proof.Bridge.lean ====
/-
  The reference's result is the kernel's result.

  Both programs end with the same tail (add every edge's feature row into its centre node's row, count, divide) over the
  same centre node numbers, so their results agree as soon as their edge features do. The reference's edge features
  are the specification's array of its two looked-up arrays; the kernel's are the same array of the same two looked-up
  arrays when the node table and the weights are finite; and the reference's looked-up arrays, sums and counts are,
  word for word, the kernel's (a narrowing of the node table to a shorter float format changes nothing on extended reals).
-/
import proofs.«128475_j996432413183_2_alg».proof.Proof.KernelRun
import proofs.«128475_j996432413183_2_alg».proof.Proof.KernelEdge
import proofs.«128475_j996432413183_2_alg».proof.Proof.RefValue

noncomputable section

namespace Cert.Bridge

open Idealize.ShloMosaic
open Cert.KernelIdeal.HostRead Cert.KernelIdeal.Blocks

/-- The reference's looked-up centre rows are the kernel's. -/
theorem centre_eq (x : FVec Ideal Cert.KernelIdeal.S50000x64 .f32) (idx : IVec Cert.KernelIdeal.S2x800000 32) :
    Cert.ReferenceIdeal.Read.val_main_v10 (F := Ideal) x idx = lookup x (nodeNums0 idx) := rfl

/-- The reference's looked-up neighbour rows are the kernel's. -/
theorem neighbour_eq (x : FVec Ideal Cert.KernelIdeal.S50000x64 .f32) (idx : IVec Cert.KernelIdeal.S2x800000 32) :
    Cert.ReferenceIdeal.Read.val_main_v17 (F := Ideal) x idx = lookup x (nodeNums1 idx) := rfl

/-- The reference's result, with its edge features named, is the tail of the centre node numbers and of those
    edge features. -/
theorem ref_tail (x : FVec Ideal Cert.KernelIdeal.S50000x64 .f32) (idx : IVec Cert.KernelIdeal.S2x800000 32)
    (W : FVec Ideal Cert.KernelIdeal.S128x128 .f32) (b : FVec Ideal Cert.KernelIdeal.S128 .f32) :
    Cert.ReferenceIdeal.Read.val_main_v36 (F := Ideal) x idx W b
      = Cert.KernelIdeal.Run.tail (nodeNums0 idx) (Cert.ReferenceIdeal.Read.val_main_v25 (F := Ideal) x idx W b) := rfl

/-- THE BRIDGE: for a finite node table and finite weights the reference's result is the kernel's. -/
theorem ref_eq_kernel (x : FVec Ideal Cert.KernelIdeal.S50000x64 .f32) (idx : IVec Cert.KernelIdeal.S2x800000 32)
    (W : FVec Ideal Cert.KernelIdeal.S128x128 .f32) (b : FVec Ideal Cert.KernelIdeal.S128 .f32)
    (hx : ∀ i, ∃ a : ℝ, x i = (a : EReal)) (hW : ∀ i, ∃ a : ℝ, W i = (a : EReal)) :
    Cert.ReferenceIdeal.Read.val_main_v36 (F := Ideal) x idx W b
      = Cert.KernelIdeal.Run.tail (nodeNums0 idx)
          (layer (R := 800000) (packed x idx) (folded W) (biasRow b)) := by
  rw [ref_tail, Cert.ReferenceIdeal.RefValue.edge_eq, centre_eq, neighbour_eq,
    Cert.KernelIdeal.Edge.layer_eq x idx W b hx hW]

end Cert.Bridge

end
-- ==== Proof.lean ====
/-
  An edge convolution on a graph: for every edge, a linear layer with bias and a cut at zero of the centre node's
  features beside the difference neighbour - centre; then, per node, the mean of its edges' outputs.

  The kernel program feeds the centre and neighbour features side by side to weights in which the difference has been
  folded ([left - right, right] instead of [left, right]); its kernel does the product, bias and cut, 16000 edges
  per grid point, and host lines do the look-ups before it and the per-node mean after it. The reference does all of
  it on the host with the difference taken on the features. The two agree on the extended reals when the node table and
  the weights are finite: the folding is distributivity (Proof/EdgeLaw.lean), which is where the precondition is used.

  The modules: EdgeLaw (the law and the specification of one output entry), Layout (two arrays side by side, read),
  KernelHost (what the region's windows hold), KernelBlocks (the region's output array, from its 50 blocks), KernelRun
  (the lines after the region, and the run), KernelEdge (the kernel's edge features are the specification's), RefValue
  (so are the reference's), Finite (the precondition read), Bridge (the two results are equal).
-/
import proofs.«128475_j996432413183_2_alg».proof.Defs
import proofs.«128475_j996432413183_2_alg».proof.Proof.Gen.Kernel
import proofs.«128475_j996432413183_2_alg».proof.Proof.Gen.Kernel.Skeleton
import proofs.«128475_j996432413183_2_alg».proof.Proof.Gen.Kernel.Launch
import proofs.«128475_j996432413183_2_alg».proof.Proof.Gen.Kernel.Points
import proofs.«128475_j996432413183_2_alg».proof.Proof.Gen.Kernel.Frame
import proofs.«128475_j996432413183_2_alg».proof.Proof.Gen.KernelIdeal
import proofs.«128475_j996432413183_2_alg».proof.Proof.Gen.KernelIdeal.Skeleton
import proofs.«128475_j996432413183_2_alg».proof.Proof.Gen.KernelIdeal.Launch
import proofs.«128475_j996432413183_2_alg».proof.Proof.Gen.KernelIdeal.Points
import proofs.«128475_j996432413183_2_alg».proof.Proof.Gen.KernelIdeal.Frame
import proofs.«128475_j996432413183_2_alg».proof.Proof.Gen.ReferenceIdeal
import proofs.«128475_j996432413183_2_alg».proof.Proof.Gen.ReferenceIdeal.Run
import proofs.«128475_j996432413183_2_alg».proof.Proof.Gen.ReferenceIdeal.Read
import proofs.«128475_j996432413183_2_alg».proof.Proof.Gen.Pre_finite_inputs
import proofs.«128475_j996432413183_2_alg».proof.Proof.Finite
import proofs.«128475_j996432413183_2_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, a finite node table and finite weights, both idealized programs end
    with the same per-node means. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hW⟩ := Cert.Pre_finite_inputs.Finite.reals_of_pre _ _ _ _ (hpre c)
  rw [Cert.ReferenceIdeal.Read.val_main_v36_eq, (hagree c).1, (hagree c).2.1, (hagree c).2.2.1, (hagree c).2.2.2]
  exact Cert.Bridge.ref_eq_kernel _ _ _ _ hx hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
